-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v35_0)) (v1 : (c : Dev Cert.KernelIdeal.nD) → Buf (Elt Ideal) ((c.tc : Thread Cert.KernelIdeal.nD Cert.KernelIdeal.τ).loc Cert.KernelIdeal.main_v35_1)) (v2 : (c : Dev Cert.KernelIdeal.nD) → Buf (Elt Ideal) ((c.tc : Thread Cert.KernelIdeal.nD Cert.KernelIdeal.τ).loc Cert.KernelIdeal.main_v30)) (v3 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35_0) = v0 c
          ∧ r.2.mem ((c.tc : Thread Cert.KernelIdeal.nD Cert.KernelIdeal.τ).loc Cert.KernelIdeal.main_v35_1) = v1 c
          ∧ r.2.mem ((c.tc : Thread Cert.KernelIdeal.nD Cert.KernelIdeal.τ).loc Cert.KernelIdeal.main_v30) = v2 c
          ∧ r.2.mem ((c.tc : Thread Cert.KernelIdeal.nD Cert.KernelIdeal.τ).loc Cert.KernelIdeal.main_v31) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_v42) = v2 c
          ∧ r.2.mem ((c.tc : Thread Cert.ReferenceIdeal.nD Cert.ReferenceIdeal.τ).loc Cert.ReferenceIdeal.main_v43) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x256 : Shape := ⟨2, ![131072, 256]⟩
abbrev S256x256 : Shape := ⟨2, ![256, 256]⟩
abbrev S256 : Shape := ⟨1, ![256]⟩
abbrev S8x256 : Shape := ⟨2, ![8, 256]⟩
abbrev S8x32 : Shape := ⟨2, ![8, 32]⟩
abbrev S8x32x256 : Shape := ⟨3, ![8, 32, 256]⟩
abbrev S_ : Shape := ⟨0, ![]⟩

class Facts : Prop where
  bcast_S_S131072x256 : S_.BroadcastsInDim S131072x256 (![] : Fin 0 → Fin S131072x256.rank)
  reducesTo_S131072x256_S_d0_1 : S131072x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S8x256 : S_.BroadcastsInDim S8x256 (![] : Fin 0 → Fin S8x256.rank)
  reducesTo_S8x256_S_d0_1 : S8x256.ReducesTo [0, 1] S_
  bcast_S_S8x32 : S_.BroadcastsInDim S8x32 (![] : Fin 0 → Fin S8x32.rank)
  reducesTo_S8x32_S_d0_1 : S8x32.ReducesTo [0, 1] S_
  bcast_S_S8x32x256 : S_.BroadcastsInDim S8x32x256 (![] : Fin 0 → Fin S8x32x256.rank)
  reducesTo_S8x32x256_S_d0_1_2 : S8x32x256.ReducesTo [0, 1, 2] S_

variable [Facts]

def fn_part2 {F : FTy → Type} [FloatOps F] (main_arg7 : FVec F S256 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  main_v38

def fn_part1 {F : FTy → Type} [FloatOps F] (main_arg4 : FVec F S8x32 .f32) (main_arg5 : FVec F S8x32x256 .f32) (main_arg6 : FVec F S256x256 .f32) (main_arg7 : FVec F S256 .f32) (main_v13 : IVec S_ 1) (main_v16 : IVec S8x256 1) : IVec S_ 1 :=
  let main_c_5 : IVec S_ 1 := constantI S_ 1 1#1
  let main_v17 : IVec S_ 1 := (fun x v => Host.reduce IntOp.andi x v reducesTo_S8x256_S_d0_1 h_S_) main_v16 main_c_5
  let main_v18 : IVec S_ 1 := andi main_v13 main_v17
  let main_v19 : FVec F S8x32 .f32 := Host.absf main_arg4
  let main_cst_6 : FVec F S_ .f32 := constant S_ .f32 0x7F800000#32
  let main_v20 : FVec F S8x32 .f32 := broadcastInDim S8x32 ![] bcast_S_S8x32 main_cst_6
  let main_v21 : IVec S8x32 1 := cmpf .olt main_v19 main_v20
  let main_c_7 : IVec S_ 1 := constantI S_ 1 1#1
  let main_v22 : IVec S_ 1 := (fun x v => Host.reduce IntOp.andi x v reducesTo_S8x32_S_d0_1 h_S_) main_v21 main_c_7
  let main_v23 : IVec S_ 1 := andi main_v18 main_v22
  let main_v24 : FVec F S8x32x256 .f32 := Host.absf main_arg5
  let main_cst_8 : FVec F S_ .f32 := constant S_ .f32 0x7F800000#32
  let main_v25 : FVec F S8x32x256 .f32 := broadcastInDim S8x32x256 ![] bcast_S_S8x32x256 main_cst_8
  let main_v26 : IVec S8x32x256 1 := cmpf .olt main_v24 main_v25
  let main_c_9 : IVec S_ 1 := constantI S_ 1 1#1
  let main_v27 : IVec S_ 1 := (fun x v => Host.reduce IntOp.andi x v reducesTo_S8x32x256_S_d0_1_2 h_S_) main_v26 main_c_9
  let main_v28 : IVec S_ 1 := andi main_v23 main_v27
  let main_v29 : FVec F S256x256 .f32 := Host.absf main_arg6
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg7 main_v33

def fn {F : FTy → Type} [FloatOps F] (main_arg0 : FVec F S131072x256 .f32) (main_arg1 : FVec F S256x256 .f32) (main_arg2 : FVec F S256 .f32) (main_arg3 : FVec F S8x256 .f32) (main_arg4 : FVec F S8x32 .f32) (main_arg5 : FVec F S8x32x256 .f32) (main_arg6 : FVec F S256x256 .f32) (main_arg7 : FVec F S256 .f32) : IVec S_ 1 :=
  let main_v0 : FVec F S131072x256 .f32 := Host.absf main_arg0
  let main_cst : FVec F S_ .f32 := constant S_ .f32 0x7F800000#32
  let main_v1 : FVec F S131072x256 .f32 := broadcastInDim S131072x256 ![] bcast_S_S131072x256 main_cst
  let main_v2 : IVec S131072x256 1 := cmpf .olt main_v0 main_v1
  let main_c : IVec S_ 1 := constantI S_ 1 1#1
  let main_v3 : IVec S_ 1 := (fun x v => Host.reduce IntOp.andi x v reducesTo_S131072x256_S_d0_1 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S8x256 .f32 := Host.absf main_arg3
  let main_cst_4 : FVec F S_ .f32 := constant S_ .f32 0x7F800000#32
  let main_v15 : FVec F S8x256 .f32 := broadcastInDim S8x256 ![] bcast_S_S8x256 main_cst_4
  let main_v16 : IVec S8x256 1 := cmpf .olt main_v14 main_v15
  fn_part1 (F := F) main_arg4 main_arg5 main_arg6 main_arg7 main_v13 main_v16
-- ==== Kernel.lean ====
abbrev S131072x256 : Shape := ⟨2, ![131072, 256]⟩
abbrev S256x256 : Shape := ⟨2, ![256, 256]⟩
abbrev S256 : Shape := ⟨1, ![256]⟩
abbrev S8x256 : Shape := ⟨2, ![8, 256]⟩
abbrev S8x32 : Shape := ⟨2, ![8, 32]⟩
abbrev S8x32x256 : Shape := ⟨3, ![8, 32, 256]⟩
abbrev S_ : Shape := ⟨0, ![]⟩
abbrev S8 : Shape := ⟨1, ![8]⟩
abbrev S8x1 : Shape := ⟨2, ![8, 1]⟩
abbrev S1x256 : Shape := ⟨2, ![1, 256]⟩
abbrev S2048x256 : Shape := ⟨2, ![2048, 256]⟩

abbrev nBuf : Space → Nat
  | .hbm => 65
  | .vmem => 12
  | .smem => 0
  | _ => 0

abbrev bufTy : (tb : Table) → Fin (tcTables nBuf tb) → BufTy
  | .hbm, ⟨0, _⟩ => ⟨S131072x256, .f32⟩
  | .hbm, ⟨1, _⟩ => ⟨S256x256, .f32⟩
  | .hbm, ⟨2, _⟩ => ⟨S256, .f32⟩
  | .hbm, ⟨3, _⟩ => ⟨S8x256, .f32⟩
  | .hbm, ⟨4, _⟩ => ⟨S8x32, .f32⟩
  | .hbm, ⟨5, _⟩ => ⟨S8x32x256, .f32⟩
  | .hbm, ⟨6, _⟩ => ⟨S256x256, .f32⟩
  | .hbm, ⟨7, _⟩ => ⟨S256, .f32⟩
  | .hbm, ⟨8, _⟩ => ⟨S8x32, .f32⟩
  | .hbm, ⟨9, _⟩ => ⟨S8x32, .f32⟩
  | .hbm, ⟨10, _⟩ => ⟨S_, .f32⟩
  | .hbm, ⟨11, _⟩ => ⟨S8, .f32⟩
  | .hbm, ⟨12, _⟩ => ⟨S8x1, .f32⟩
  | .hbm, ⟨13, _⟩ => ⟨S8x1, .f32⟩
  | .hbm, ⟨14, _⟩ => ⟨S_, .f32⟩
  | .hbm, ⟨15, _⟩ => ⟨S8x1, .f32⟩
  | .hbm, ⟨16, _⟩ => ⟨S8x1, .f32⟩
  | .hbm, ⟨17, _⟩ => ⟨S8x32, .f32⟩
  | .hbm, ⟨18, _⟩ => ⟨S8x32, .f32⟩
  | .hbm, ⟨19, _⟩ => ⟨S8x32, .f32⟩
  | .hbm, ⟨20, _⟩ => ⟨S_, .f32⟩
  | .hbm, ⟨21, _⟩ => ⟨S8, .f32⟩
  | .hbm, ⟨22, _⟩ => ⟨S8x1, .f32⟩
  | .hbm, ⟨23, _⟩ => ⟨S8x1, .f32⟩
  | .hbm, ⟨24, _⟩ => ⟨S_, .f32⟩
  | .hbm, ⟨25, _⟩ => ⟨S8x1, .f32⟩
  | .hbm, ⟨26, _⟩ => ⟨S8x1, .f32⟩
  | .hbm, ⟨27, _⟩ => ⟨S8x32, .f32⟩
  | .hbm, ⟨28, _⟩ => ⟨S8x32, .f32⟩
  | .hbm, ⟨29, _⟩ => ⟨S8x32, .f32⟩
  | .hbm, ⟨30, _⟩ => ⟨S_, .f32⟩
  | .hbm, ⟨31, _⟩ => ⟨S8, .f32⟩
  | .hbm, ⟨32, _⟩ => ⟨S_, .f32⟩
  | .hbm, ⟨33, _⟩ => ⟨S8, .f32⟩
  | .hbm, ⟨34, _⟩ => ⟨S8, .f32⟩
  | .hbm, ⟨35, _⟩ => ⟨S8, .f32⟩
  | .hbm, ⟨36, _⟩ => ⟨S8, .f32⟩
  | .hbm, ⟨37, _⟩ => ⟨S_, .f32⟩
  | .hbm, ⟨38, _⟩ => ⟨S8, .f32⟩
  | .hbm, ⟨39, _⟩ => ⟨S8, .f32⟩
  | .hbm, ⟨40, _⟩ => ⟨S_, .f32⟩
  | .hbm, ⟨41, _⟩ => ⟨S8, .f32⟩
  | .hbm, ⟨42, _⟩ => ⟨S8, .f32⟩
  | .hbm, ⟨43, _⟩ => ⟨S_, .f32⟩
  | .hbm, ⟨44, _⟩ => ⟨S8, .f32⟩
  | .hbm, ⟨45, _⟩ => ⟨S8, .i1⟩
  | .hbm, ⟨46, _⟩ => ⟨S_, .f32⟩
  | .hbm, ⟨47, _⟩ => ⟨S_, .f32⟩
  | .hbm, ⟨48, _⟩ => ⟨S8, .f32⟩
  | .hbm, ⟨49, _⟩ => ⟨S8, .f32⟩
  | .hbm, ⟨50, _⟩ => ⟨S8x32, .f32⟩
  | .hbm, ⟨51, _⟩ => ⟨S256, .f32⟩
  | .hbm, ⟨52, _⟩ => ⟨S1x256, .f32⟩
  | .hbm, ⟨53, _⟩ => ⟨S_, .f32⟩
  | .hbm, ⟨54, _⟩ => ⟨S8, .f32⟩
  | .hbm, ⟨55, _⟩ => ⟨S8, .i1⟩
  | .hbm, ⟨56, _⟩ => ⟨S8, .f32⟩
  | .hbm, ⟨57, _⟩ => ⟨S8, .f32⟩
  | .hbm, ⟨58, _⟩ => ⟨S_, .f32⟩
  | .hbm, ⟨59, _⟩ => ⟨S8, .f32⟩
  | .hbm, ⟨60, _⟩ => ⟨S256x256, .f32⟩
  | .hbm, ⟨61, _⟩ => ⟨S1x256, .f32⟩
  | .hbm, ⟨62, _⟩ => ⟨S1x256, .f32⟩
  | .hbm, ⟨63, _⟩ => ⟨S131072x256, .f32⟩
  | .hbm, ⟨64, _⟩ => ⟨S131072x256, .f32⟩
  | .local _ .vmem, ⟨0, _⟩ => ⟨S2048x256, .f32⟩
  | .local _ .vmem, ⟨1, _⟩ => ⟨S2048x256, .f32⟩
  | .local _ .vmem, ⟨2, _⟩ => ⟨S256x256, .f32⟩
  | .local _ .vmem, ⟨3, _⟩ => ⟨S1x256, .f32⟩
  | .local _ .vmem, ⟨4, _⟩ => ⟨S256x256, .f32⟩
  | .local _ .vmem, ⟨5, _⟩ => ⟨S1x256, .f32⟩
  | .local _ .vmem, ⟨6, _⟩ => ⟨S256x256, .f32⟩
  | .local _ .vmem, ⟨7, _⟩ => ⟨S1x256, .f32⟩
  | .local _ .vmem, ⟨8, _⟩ => ⟨S2048x256, .f32⟩
  | .local _ .vmem, ⟨9, _⟩ => ⟨S2048x256, .f32⟩
  | .local _ .vmem, ⟨10, _⟩ => ⟨S2048x256, .f32⟩
  | .local _ .vmem, ⟨11, _⟩ => ⟨S2048x256, .f32⟩
  | _, _ => ⟨S131072x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_call0_v0 : Ref sig .tc := ⟨.hbm, 9, rfl⟩
abbrev main_call0_cst : Ref sig .tc := ⟨.hbm, 10, rfl⟩
abbrev main_call0_v1 : Ref sig .tc := ⟨.hbm, 11, rfl⟩
abbrev main_call0_v2 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_call1_v0 : Ref sig .tc := ⟨.hbm, 19, rfl⟩
abbrev main_call1_cst : Ref sig .tc := ⟨.hbm, 20, rfl⟩
abbrev main_call1_v1 : Ref sig .tc := ⟨.hbm, 21, rfl⟩
abbrev main_call1_v2 : Ref sig .tc := ⟨.hbm, 22, rfl⟩
abbrev main_v6 : Ref sig .tc := ⟨.hbm, 23, rfl⟩
abbrev main_cst_0 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_cst_1 : Ref sig .tc := ⟨.hbm, 30, rfl⟩
abbrev main_v12 : Ref sig .tc := ⟨.hbm, 31, rfl⟩
abbrev main_cst_2 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst_3 : Ref sig .tc := ⟨.hbm, 37, rfl⟩
abbrev main_v17 : Ref sig .tc := ⟨.hbm, 38, rfl⟩
abbrev main_v18 : Ref sig .tc := ⟨.hbm, 39, rfl⟩
abbrev main_cst_4 : Ref sig .tc := ⟨.hbm, 40, rfl⟩
abbrev main_v19 : Ref sig .tc := ⟨.hbm, 41, rfl⟩
abbrev main_v20 : Ref sig .tc := ⟨.hbm, 42, rfl⟩
abbrev main_cst_5 : Ref sig .tc := ⟨.hbm, 43, rfl⟩
abbrev main_v21 : Ref sig .tc := ⟨.hbm, 44, rfl⟩
abbrev main_v22 : Ref sig .tc := ⟨.hbm, 45, rfl⟩
abbrev main_cst_6 : Ref sig .tc := ⟨.hbm, 46, rfl⟩
abbrev main_call2_v0 : Ref sig .tc := ⟨.hbm, 47, rfl⟩
abbrev main_call2_v1 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_cst_7 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_cst_8 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35_0 : Ref sig .tc := ⟨.hbm, 63, rfl⟩
abbrev main_v35_1 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2048x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  slices_S8x256_S8x32_0_0 : S8x256.Slices ![0, 0] S8x32
  reducesTo_S8x32_S8_d1 : S8x32.ReducesTo [1] S8
  h_S_ : 0 < S_.numel
  bcast_S8_S8x1_0 : S8.BroadcastsInDim S8x1 (![0] : Fin 1 → Fin S8x1.rank)
  bcast_S_S8x1 : S_.BroadcastsInDim S8x1 (![] : Fin 0 → Fin S8x1.rank)
  bcast_S8x1_S8x32_0_1 : S8x1.BroadcastsInDim S8x32 (![0, 1] : Fin 2 → Fin S8x32.rank)
  bcast_S_S8 : S_.BroadcastsInDim S8 (![] : Fin 0 → Fin S8.rank)
  bcast_S8_S8x32_0 : S8.BroadcastsInDim S8x32 (![0] : Fin 1 → Fin S8x32.rank)
  shapeCasts_S8x32_S256 : S8x32.ShapeCasts S256
  shapeCasts_S256_S1x256 : S256.ShapeCasts S1x256
  shapeCasts_S8x32x256_S256x256 : S8x32x256.ShapeCasts S256x256
  inb_S2048x256_S2048x256_0_0 : ∀ a, (![0, 0] : Fin 2 → Nat) a + S2048x256.size a ≤ S2048x256.size a
  h_S2048x256 : 0 < S2048x256.numel
  inb_S256x256_S256x256_0_0 : ∀ a, (![0, 0] : Fin 2 → Nat) a + S256x256.size a ≤ S256x256.size a
  h_S256x256 : 0 < S256x256.numel
  transposes_S256x256_p1_0_S256x256 : S256x256.Transposes [1, 0] S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  shapeCasts_S256x256_S256x256 : S256x256.ShapeCasts S256x256
  dot_S2048x256_S256x256_S2048x256_1_0_0_1_n_n_wf : DotDims.WF S2048x256 S256x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S131072x256.size a
  hwx0_0 : ∀ i : grid0.Coords, EltTy.bits .f32 = 32 ∨ (Rect.block (s := S131072x256) S2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x256.size a ≤ S131072x256.size a
  hwx0_7 : ∀ i : grid0.Coords, EltTy.bits .f32 = 32 ∨ (Rect.block (s := S131072x256) S2048x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2048x256.size a ≤ S131072x256.size a
  hwx0_8 : ∀ i : grid0.Coords, EltTy.bits .f32 = 32 ∨ (Rect.block (s := S131072x256) S2048x256.size (cc0_transform_8 i) (hinb0_8 i)).WholeWords (EltTy.packing .f32)

variable [Facts₀]

def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v32) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v34) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v35_0) S2048x256.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v35_1) S2048x256.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S131072x256 : Shape := ⟨2, ![131072, 256]⟩
abbrev S256x256 : Shape := ⟨2, ![256, 256]⟩
abbrev S256 : Shape := ⟨1, ![256]⟩
abbrev S8x256 : Shape := ⟨2, ![8, 256]⟩
abbrev S8x32 : Shape := ⟨2, ![8, 32]⟩
abbrev S8x32x256 : Shape := ⟨3, ![8, 32, 256]⟩
abbrev S1x256 : Shape := ⟨2, ![1, 256]⟩
abbrev S_ : Shape := ⟨0, ![]⟩
abbrev S8 : Shape := ⟨1, ![8]⟩
abbrev S8x1 : Shape := ⟨2, ![8, 1]⟩
abbrev S131072x8x32 : Shape := ⟨3, ![131072, 8, 32]⟩
abbrev S1x8x1 : Shape := ⟨3, ![1, 8, 1]⟩

abbrev nBuf : Space → Nat
  | .hbm => 72
  | .vmem => 0
  | .smem => 0
  | _ => 0

abbrev bufTy : (tb : Table) → Fin (tcTables nBuf tb) → BufTy
  | .hbm, ⟨0, _⟩ => ⟨S131072x256, .f32⟩
  | .hbm, ⟨1, _⟩ => ⟨S256x256, .f32⟩
  | .hbm, ⟨2, _⟩ => ⟨S256, .f32⟩
  | .hbm, ⟨3, _⟩ => ⟨S8x256, .f32⟩
  | .hbm, ⟨4, _⟩ => ⟨S8x32, .f32⟩
  | .hbm, ⟨5, _⟩ => ⟨S8x32x256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S131072x256, .f32⟩
  | .hbm, ⟨10, _⟩ => ⟨S1x256, .f32⟩
  | .hbm, ⟨11, _⟩ => ⟨S131072x256, .f32⟩
  | .hbm, ⟨12, _⟩ => ⟨S131072x256, .f32⟩
  | .hbm, ⟨13, _⟩ => ⟨S8x32, .f32⟩
  | .hbm, ⟨14, _⟩ => ⟨S8x32, .f32⟩
  | .hbm, ⟨15, _⟩ => ⟨S_, .f32⟩
  | .hbm, ⟨16, _⟩ => ⟨S8, .f32⟩
  | .hbm, ⟨17, _⟩ => ⟨S8x1, .f32⟩
  | .hbm, ⟨18, _⟩ => ⟨S8x1, .f32⟩
  | .hbm, ⟨19, _⟩ => ⟨S_, .f32⟩
  | .hbm, ⟨20, _⟩ => ⟨S8x1, .f32⟩
  | .hbm, ⟨21, _⟩ => ⟨S8x1, .f32⟩
  | .hbm, ⟨22, _⟩ => ⟨S8x32, .f32⟩
  | .hbm, ⟨23, _⟩ => ⟨S8x32, .f32⟩
  | .hbm, ⟨24, _⟩ => ⟨S8x32, .f32⟩
  | .hbm, ⟨25, _⟩ => ⟨S_, .f32⟩
  | .hbm, ⟨26, _⟩ => ⟨S8, .f32⟩
  | .hbm, ⟨27, _⟩ => ⟨S8x1, .f32⟩
  | .hbm, ⟨28, _⟩ => ⟨S8x1, .f32⟩
  | .hbm, ⟨29, _⟩ => ⟨S_, .f32⟩
  | .hbm, ⟨30, _⟩ => ⟨S8x1, .f32⟩
  | .hbm, ⟨31, _⟩ => ⟨S8x1, .f32⟩
  | .hbm, ⟨32, _⟩ => ⟨S8x32, .f32⟩
  | .hbm, ⟨33, _⟩ => ⟨S8x32, .f32⟩
  | .hbm, ⟨34, _⟩ => ⟨S8x32, .f32⟩
  | .hbm, ⟨35, _⟩ => ⟨S_, .f32⟩
  | .hbm, ⟨36, _⟩ => ⟨S8, .f32⟩
  | .hbm, ⟨37, _⟩ => ⟨S_, .f32⟩
  | .hbm, ⟨38, _⟩ => ⟨S8, .f32⟩
  | .hbm, ⟨39, _⟩ => ⟨S8, .f32⟩
  | .hbm, ⟨40, _⟩ => ⟨S8, .f32⟩
  | .hbm, ⟨41, _⟩ => ⟨S8, .f32⟩
  | .hbm, ⟨42, _⟩ => ⟨S_, .f32⟩
  | .hbm, ⟨43, _⟩ => ⟨S8, .f32⟩
  | .hbm, ⟨44, _⟩ => ⟨S8, .f32⟩
  | .hbm, ⟨45, _⟩ => ⟨S_, .f32⟩
  | .hbm, ⟨46, _⟩ => ⟨S8, .f32⟩
  | .hbm, ⟨47, _⟩ => ⟨S8, .f32⟩
  | .hbm, ⟨48, _⟩ => ⟨S_, .f32⟩
  | .hbm, ⟨49, _⟩ => ⟨S8, .f32⟩
  | .hbm, ⟨50, _⟩ => ⟨S8, .i1⟩
  | .hbm, ⟨51, _⟩ => ⟨S_, .f32⟩
  | .hbm, ⟨52, _⟩ => ⟨S_, .f32⟩
  | .hbm, ⟨53, _⟩ => ⟨S8, .f32⟩
  | .hbm, ⟨54, _⟩ => ⟨S8, .f32⟩
  | .hbm, ⟨55, _⟩ => ⟨S131072x8x32, .f32⟩
  | .hbm, ⟨56, _⟩ => ⟨S1x8x1, .f32⟩
  | .hbm, ⟨57, _⟩ => ⟨S131072x8x32, .f32⟩
  | .hbm, ⟨58, _⟩ => ⟨S131072x8x32, .f32⟩
  | .hbm, ⟨59, _⟩ => ⟨S131072x256, .f32⟩
  | .hbm, ⟨60, _⟩ => ⟨S256x256, .f32⟩
  | .hbm, ⟨61, _⟩ => ⟨S131072x256, .f32⟩
  | .hbm, ⟨62, _⟩ => ⟨S1x256, .f32⟩
  | .hbm, ⟨63, _⟩ => ⟨S131072x256, .f32⟩
  | .hbm, ⟨64, _⟩ => ⟨S131072x256, .f32⟩
  | .hbm, ⟨65, _⟩ => ⟨S_, .f32⟩
  | .hbm, ⟨66, _⟩ => ⟨S8, .f32⟩
  | .hbm, ⟨67, _⟩ => ⟨S8, .i1⟩
  | .hbm, ⟨68, _⟩ => ⟨S8, .f32⟩
  | .hbm, ⟨69, _⟩ => ⟨S8, .f32⟩
  | .hbm, ⟨70, _⟩ => ⟨S_, .f32⟩
  | .hbm, ⟨71, _⟩ => ⟨S8, .f32⟩
  | _, _ => ⟨S131072x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_call0_v0 : Ref sig .tc := ⟨.hbm, 14, rfl⟩
abbrev main_call0_cst : Ref sig .tc := ⟨.hbm, 15, rfl⟩
abbrev main_call0_v1 : Ref sig .tc := ⟨.hbm, 16, rfl⟩
abbrev main_call0_v2 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_call1_v0 : Ref sig .tc := ⟨.hbm, 24, rfl⟩
abbrev main_call1_cst : Ref sig .tc := ⟨.hbm, 25, rfl⟩
abbrev main_call1_v1 : Ref sig .tc := ⟨.hbm, 26, rfl⟩
abbrev main_call1_v2 : Ref sig .tc := ⟨.hbm, 27, rfl⟩
abbrev main_v11 : Ref sig .tc := ⟨.hbm, 28, rfl⟩
abbrev main_cst_0 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_1 : Ref sig .tc := ⟨.hbm, 35, rfl⟩
abbrev main_v17 : Ref sig .tc := ⟨.hbm, 36, rfl⟩
abbrev main_cst_2 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_3 : Ref sig .tc := ⟨.hbm, 42, rfl⟩
abbrev main_v22 : Ref sig .tc := ⟨.hbm, 43, rfl⟩
abbrev main_v23 : Ref sig .tc := ⟨.hbm, 44, rfl⟩
abbrev main_cst_4 : Ref sig .tc := ⟨.hbm, 45, rfl⟩
abbrev main_v24 : Ref sig .tc := ⟨.hbm, 46, rfl⟩
abbrev main_v25 : Ref sig .tc := ⟨.hbm, 47, rfl⟩
abbrev main_cst_5 : Ref sig .tc := ⟨.hbm, 48, rfl⟩
abbrev main_v26 : Ref sig .tc := ⟨.hbm, 49, rfl⟩
abbrev main_v27 : Ref sig .tc := ⟨.hbm, 50, rfl⟩
abbrev main_cst_6 : Ref sig .tc := ⟨.hbm, 51, rfl⟩
abbrev main_call2_v0 : Ref sig .tc := ⟨.hbm, 52, rfl⟩
abbrev main_call2_v1 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_7 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_8 : Ref sig .tc := ⟨.hbm, 70, rfl⟩
abbrev main_v43 : Ref sig .tc := ⟨.hbm, 71, rfl⟩

abbrev nD : Nat := 1
abbrev τ : Topo := Topo.v7x

variable {F : FTy → Type} [FloatOps F]

class Facts₀ : Prop where
  transposes_S256x256_S256x256_1_0 : S256x256.Transposes [1, 0] S256x256
  bcast_S256_S1x256_1 : S256.BroadcastsInDim S1x256 (![1] : Fin 1 → Fin S1x256.rank)
  bcast_S1x256_S131072x256_0_1 : S1x256.BroadcastsInDim S131072x256 (![0, 1] : Fin 2 → Fin S131072x256.rank)
  slices_S8x256_S8x32_0_0 : S8x256.Slices ![0, 0] S8x32
  reducesTo_S8x32_S8_d1 : S8x32.ReducesTo [1] S8
  h_S_ : 0 < S_.numel
  bcast_S8_S8x1_0 : S8.BroadcastsInDim S8x1 (![0] : Fin 1 → Fin S8x1.rank)
  bcast_S_S8x1 : S_.BroadcastsInDim S8x1 (![] : Fin 0 → Fin S8x1.rank)
  bcast_S8x1_S8x32_0_1 : S8x1.BroadcastsInDim S8x32 (![0, 1] : Fin 2 → Fin S8x32.rank)
  bcast_S_S8 : S_.BroadcastsInDim S8 (![] : Fin 0 → Fin S8.rank)
  bcast_S8_S1x8x1_1 : S8.BroadcastsInDim S1x8x1 (![1] : Fin 1 → Fin S1x8x1.rank)
  bcast_S1x8x1_S131072x8x32_0_1_2 : S1x8x1.BroadcastsInDim S131072x8x32 (![0, 1, 2] : Fin 3 → Fin S131072x8x32.rank)
  shapeCasts_S131072x8x32_S131072x256 : S131072x8x32.ShapeCasts S131072x256
  dot_S131072x256_S256x256_S131072x256_1_0_0_1_n_n_wf : DotDims.WF S131072x256 S256x256 S131072x256 [1] [0] [0] [1] [] []
  dot_S131072x256_S8x32x256_S131072x8x32_1_2_0_01_n_n_wf : DotDims.WF S131072x256 S8x32x256 S131072x8x32 [1] [2] [0] [0, 1] [] []

variable [Facts₀]

def dot_S131072x256_S256x256_S131072x256_1_0_0_1_n_n : DotDims S131072x256 S256x256 S131072x256 where
  lhsContracting := [1]
  rhsContracting := [0]
  lhsNonContracting := [0]
  rhsNonContracting := [1]
  lhsBatch := []
  rhsBatch := []
  wf := dot_S131072x256_S256x256_S131072x256_1_0_0_1_n_n_wf
def dot_S131072x256_S8x32x256_S131072x8x32_1_2_0_01_n_n : DotDims S131072x256 S8x32x256 S131072x8x32 where
  lhsContracting := [1]
  rhsContracting := [2]
  lhsNonContracting := [0]
  rhsNonContracting := [0, 1]
  lhsBatch := []
  rhsBatch := []
  wf := dot_S131072x256_S8x32x256_S131072x8x32_1_2_0_01_n_n_wf

class Facts : Prop extends Facts₀ where

variable [Facts]
-- ==== Proof.Spec.lean ====
/-
  The function both programs compute, written once over the argument arrays and index by index on the extended reals.

  With x : [131072, 256], Wp : [256, 256], bp : [256], Wc : [8, 32, 256], a gate vector g : [8], Wo : [256, 256] and
  bo : [256]:

    proj r k       = (Σ_j x[r, j] · Wp[k, j]) + bp[k]                          (the input projection, row r)
    gated r n      = (Σ_k proj r k · Wc[n / 32, n % 32, k]) · g[n / 32]        (column block n / 32, offset n % 32)
    integrated r n = (Σ_k gated r k · Wo[n, k]) + bo[n]                        (the output integration)

  A flat column n in [0, 256) is column block n / 32 at offset n % 32: that is how an [8, 32, ·] array is laid out as
  [256, ·] in row-major order, and how a [·, 8, 32] result is laid out as [·, 256]. Both programs form these three
  sums in exactly this order of factors and of terms, so no law of the extended reals is needed to compare them: the
  comparison is a matter of which element each sum reads.
-/
import Idealize.ShloMosaic.PureOps.Ideal
import Idealize.ShloMosaic.Lib.ValueIdx

noncomputable section

open scoped BigOperators

namespace Cert.Plasticity

open Idealize.ShloMosaic Idealize.ShloMosaic.ValueIdx

/-- The batch of rows, [131072, 256]. -/
abbrev Rows : Shape := ⟨2, ![131072, 256]⟩
/-- A square weight matrix, [256, 256]. -/
abbrev Sq : Shape := ⟨2, ![256, 256]⟩
/-- A bias vector, [256]. -/
abbrev Bias : Shape := ⟨1, ![256]⟩
/-- The column weights, [8, 32, 256]: column block, offset in the block, input feature. -/
abbrev Cols : Shape := ⟨3, ![8, 32, 256]⟩
/-- One gate per column block, [8]. -/
abbrev Gates : Shape := ⟨1, ![8]⟩

/-- The column block of a flat column. -/
def colBlock (n : Fin 256) : Fin 8 := ⟨n.val / 32, by have := n.isLt; omega⟩
/-- The offset of a flat column inside its block. -/
def colOff (n : Fin 256) : Fin 32 := ⟨n.val % 32, by have := n.isLt; omega⟩

theorem colBlock_val (n : Fin 256) : (colBlock n).val = n.val / 32 := rfl
theorem colOff_val (n : Fin 256) : (colOff n).val = n.val % 32 := rfl

variable (x : FVec Ideal Rows .f32) (Wp : FVec Ideal Sq .f32) (bp : FVec Ideal Bias .f32)
  (Wc : FVec Ideal Cols .f32) (g : FVec Ideal Gates .f32) (Wo : FVec Ideal Sq .f32) (bo : FVec Ideal Bias .f32)

/-- The input projection of row `r` at feature `k`: the row against row `k` of `Wp`, plus the bias. -/
def proj (r : Fin 131072) (k : Fin 256) : EReal :=
  (∑ j : Fin 256, x (ix2 r j) * Wp (ix2 k j)) + bp (ix1 k)

/-- The gated column output of row `r` at flat column `n`: the projected row against the column's weights, times the
    gate of the column's block. -/
def gated (r : Fin 131072) (n : Fin 256) : EReal :=
  (∑ k : Fin 256, proj x Wp bp r k * Wc (ix3 (colBlock n) (colOff n) k)) * g (ix1 (colBlock n))

/-- The output integration of row `r` at feature `n`: the gated row against row `n` of `Wo`, plus the bias. -/
def integrated (r : Fin 131072) (n : Fin 256) : EReal :=
  (∑ k : Fin 256, gated x Wp bp Wc g r k * Wo (ix2 n k)) + bo (ix1 n)

/-- The gated column outputs as a whole [131072, 256] array. -/
def gatedArr : FVec Ideal Rows .f32 := fun i => gated x Wp bp Wc g ⟨(i 0).val, (i 0).isLt⟩ ⟨(i 1).val, (i 1).isLt⟩

/-- The integrated outputs as a whole [131072, 256] array. -/
def integratedArr : FVec Ideal Rows .f32 :=
  fun i => integrated x Wp bp Wc g Wo bo ⟨(i 0).val, (i 0).isLt⟩ ⟨(i 1).val, (i 1).isLt⟩

theorem gatedArr_ix2 (r : Fin 131072) (n : Fin 256) :
    gatedArr x Wp bp Wc g (ix2 r n) = gated x Wp bp Wc g r n := rfl

theorem integratedArr_ix2 (r : Fin 131072) (n : Fin 256) :
    integratedArr x Wp bp Wc g Wo bo (ix2 r n) = integrated x Wp bp Wc g Wo bo r n := rfl

end Cert.Plasticity

end
-- ==== Proof.RefSide.lean ====
/-
  The reference's stages are the specification. The reference forms the projection as `x · Wpᵀ + bp`, the column outputs
  as one contraction of the projected rows with the [8, 32, 256] weights over the feature axis, scaled by the gate
  broadcast along the column block, lays the [131072, 8, 32] result out as [131072, 256], and integrates it as
  `· Woᵀ + bo`. Read at an index each contraction is a sum over the 256 features; what is proved here is which element
  of which argument each term reads:
    • a transposed weight at (k, n) is the weight at (n, k);
    • flat column n of the laid-out result is block n / 32, offset n % 32 (row-major arithmetic);
    • the broadcast gate at (r, a, o) is the gate of block a; a broadcast bias at (r, n) is the bias at n.
  With those the reference's sums are, term for term, the specification's.
-/
import proofs.«131770_j51857435132585_1_alg».proof.Proof.Gen.ReferenceIdeal.Read
import proofs.«131770_j51857435132585_1_alg».proof.Proof.Spec

noncomputable section
open scoped BigOperators

namespace Cert.Plasticity.Ref

open Cert.ReferenceIdeal Cert.ReferenceIdeal.Read Idealize.ShloMosaic Idealize.ShloMosaic.ValueIdx Cert.Plasticity

variable (x0 : (⟨S131072x256, .f32⟩ : BufTy).Contents (Elt Ideal)) (x1 : (⟨S256x256, .f32⟩ : BufTy).Contents (Elt Ideal))
  (x2 : (⟨S256, .f32⟩ : BufTy).Contents (Elt Ideal)) (x3 : (⟨S8x256, .f32⟩ : BufTy).Contents (Elt Ideal))
  (x4 : (⟨S8x32, .f32⟩ : BufTy).Contents (Elt Ideal)) (x5 : (⟨S8x32x256, .f32⟩ : BufTy).Contents (Elt Ideal))
  (x6 : (⟨S256x256, .f32⟩ : BufTy).Contents (Elt Ideal)) (x7 : (⟨S256, .f32⟩ : BufTy).Contents (Elt Ideal))

/-! ## Which element each term reads -/

/-- Flat column `n` of row `r` in the [131072, 256] layout is (r, n / 32, n % 32) in the [131072, 8, 32] layout. -/
theorem split_column (r : Fin 131072) (n : Fin 256) : idx_main_v33 (ix2 r n) = ix3 r (colBlock n) (colOff n) :=
  funext fun a => Fin.ext (by
    have hr := r.isLt
    have hn := n.isLt
    match a with
    | ⟨0, _⟩ => show (r.val * 256 + n.val) / 256 = r.val; omega
    | ⟨1, _⟩ => show (r.val * 256 + n.val) / 32 % 8 = n.val / 32; omega
    | ⟨2, _⟩ => show (r.val * 256 + n.val) % 32 = n.val % 32; omega)

/-- The projection's left factor: row `r`, feature `j`. -/
theorem proj_lhs (r : Fin 131072) (k j : Fin 256) : lidx_main_v1 (ix2 r k) j = ix2 r j :=
  funext fun a => by match a with | ⟨0, _⟩ => rfl | ⟨1, _⟩ => rfl
/-- The projection's right factor: the transposed `Wp` at (j, k) is `Wp` at (k, j). -/
theorem proj_rhs (r : Fin 131072) (k j : Fin 256) : idx_main_v0 (ridx_main_v1 (ix2 r k) j) = ix2 k j :=
  funext fun a => by match a with | ⟨0, _⟩ => rfl | ⟨1, _⟩ => rfl
/-- The projection's bias, broadcast over the rows, at (r, k) is the bias at `k`. -/
theorem proj_bias (r : Fin 131072) (k : Fin 256) : idx_main_v2 (idx_main_v3 (ix2 r k)) = ix1 k :=
  funext fun a => by match a with | ⟨0, _⟩ => rfl

/-- The column contraction's left factor: the projected row `r` at feature `k`. -/
theorem cols_lhs (r : Fin 131072) (a : Fin 8) (o : Fin 32) (k : Fin 256) : lidx_main_v29 (ix3 r a o) k = ix2 r k :=
  funext fun b => by match b with | ⟨0, _⟩ => rfl | ⟨1, _⟩ => rfl
/-- The column contraction's right factor: the weight of block `a`, offset `o`, feature `k`. -/
theorem cols_rhs (r : Fin 131072) (a : Fin 8) (o : Fin 32) (k : Fin 256) : ridx_main_v29 (ix3 r a o) k = ix3 a o k :=
  funext fun b => by match b with | ⟨0, _⟩ => rfl | ⟨1, _⟩ => rfl | ⟨2, _⟩ => rfl
/-- The gate broadcast to [131072, 8, 32] at (r, a, o) is the gate of block `a`. -/
theorem cols_gate (r : Fin 131072) (a : Fin 8) (o : Fin 32) : idx_main_v30 (idx_main_v31 (ix3 r a o)) = ix1 a :=
  funext fun b => by match b with | ⟨0, _⟩ => rfl

/-- The integration's left factor: the gated row `r` at flat column `k`. -/
theorem integ_lhs (r : Fin 131072) (n k : Fin 256) : lidx_main_v35 (ix2 r n) k = ix2 r k :=
  funext fun a => by match a with | ⟨0, _⟩ => rfl | ⟨1, _⟩ => rfl
/-- The integration's right factor: the transposed `Wo` at (k, n) is `Wo` at (n, k). -/
theorem integ_rhs (r : Fin 131072) (n k : Fin 256) : idx_main_v34 (ridx_main_v35 (ix2 r n) k) = ix2 n k :=
  funext fun a => by match a with | ⟨0, _⟩ => rfl | ⟨1, _⟩ => rfl
/-- The integration's bias at (r, n) is the bias at `n`. -/
theorem integ_bias (r : Fin 131072) (n : Fin 256) : idx_main_v36 (idx_main_v37 (ix2 r n)) = ix1 n :=
  funext fun a => by match a with | ⟨0, _⟩ => rfl

/-! ## The three stages, entry by entry -/

/-- The reference's projection stage at (r, k). -/
theorem proj_eq (r : Fin 131072) (k : Fin 256) :
    val_main_v4 (F := Ideal) x0 x1 x2 (ix2 r k) = proj x0 x1 x2 r k := by
  rw [val_main_v4_apply, val_main_v1_apply, val_main_v3_apply, val_main_v2_apply, proj_bias]
  simp only [val_main_v0_apply, proj_lhs, proj_rhs]
  rfl

/-- The reference's gated column stage, laid out as [131072, 256], at (r, n). -/
theorem gated_eq (r : Fin 131072) (n : Fin 256) :
    val_main_v33 (F := Ideal) x0 x1 x2 x3 x4 x5 (ix2 r n) = gated x0 x1 x2 x5 (val_main_v28 (F := Ideal) x3 x4) r n := by
  rw [val_main_v33_apply, split_column, val_main_v32_apply, val_main_v29_apply, val_main_v31_apply, val_main_v30_apply,
    cols_gate]
  simp only [cols_lhs, cols_rhs, proj_eq]
  rfl

/-- The reference's integration stage at (r, n). -/
theorem integrated_eq (r : Fin 131072) (n : Fin 256) :
    val_main_v38 (F := Ideal) x0 x1 x2 x3 x4 x5 x6 x7 (ix2 r n)
      = integrated x0 x1 x2 x5 (val_main_v28 (F := Ideal) x3 x4) x6 x7 r n := by
  rw [val_main_v38_apply, val_main_v35_apply, val_main_v37_apply, val_main_v36_apply, integ_bias]
  simp only [val_main_v34_apply, integ_lhs, integ_rhs, gated_eq]
  rfl

/-! ## The two result arrays -/

/-- The reference's second result is the array of gated column outputs, for the reference's own gate vector. -/
theorem gatedArr_eq :
    val_main_v33 (F := Ideal) x0 x1 x2 x3 x4 x5 = gatedArr x0 x1 x2 x5 (val_main_v28 (F := Ideal) x3 x4) := by
  funext i
  obtain ⟨r, n, rfl⟩ : ∃ (r : Fin 131072) (n : Fin 256), i = ix2 r n := ⟨i 0, i 1, eq_ix2 i⟩
  rw [gated_eq, gatedArr_ix2]

/-- The reference's first result is the array of integrated outputs, for the reference's own gate vector. -/
theorem integratedArr_eq :
    val_main_v38 (F := Ideal) x0 x1 x2 x3 x4 x5 x6 x7
      = integratedArr x0 x1 x2 x5 (val_main_v28 (F := Ideal) x3 x4) x6 x7 := by
  funext i
  obtain ⟨r, n, rfl⟩ : ∃ (r : Fin 131072) (n : Fin 256), i = ix2 r n := ⟨i 0, i 1, eq_ix2 i⟩
  rw [integrated_eq, integratedArr_ix2]

end Cert.Plasticity.Ref

end
-- ==== Proof.Payload.lean ====
/-
  What the kernel body computes on one block, entry by entry. The body holds a block of 2048 rows and four resident
  operands — `Wp`, the [256, 256] layout of the column weights, `Wo`, and three [1, 256] rows (the two biases and the
  gate spread over the 256 flat columns) — and forms

    projected = rows · Wpᵀ + bias row,   gated = (projected · Wcᵀ) ∗ gate row,   out = gated · Woᵀ + bias row,

  each product accumulated into a zero block. At the extended reals a product into a zero accumulator is, at (p, q),
  the sum over the 256 contracted features of left(p, k) · right(k, q); a transposed matrix at (k, q) is the matrix at
  (q, k); a [1, 256] row broadcast down the block at (p, q) is the row at (0, q). So entry (p, q) of each stored block
  is the same nest of sums as the specification's, read off the block's rows and the resident operands.
-/
import proofs.«131770_j51857435132585_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section
open scoped BigOperators

namespace Cert.Plasticity.Body

open Cert.KernelIdeal Cert.KernelIdeal.Gen Idealize.ShloMosaic Idealize.ShloMosaic.ValueIdx

/-! ## The block product's operand indices -/

theorem dot_lhs0 (i : S2048x256.Idx) (q : dot_S2048x256_S256x256_S2048x256_1_0_0_1_n_n.contr.Idx) :
    (dot_S2048x256_S256x256_S2048x256_1_0_0_1_n_n.lhsIdx i q 0).val = (i 0).val := by
  unfold DotDims.lhsIdx
  rw [dif_neg (show ¬(0 : Fin S2048x256.rank) ∈ dot_S2048x256_S256x256_S2048x256_1_0_0_1_n_n.lhsBatch by decide),
    dif_pos (show (0 : Fin S2048x256.rank) ∈ dot_S2048x256_S256x256_S2048x256_1_0_0_1_n_n.lhsNonContracting by decide)]
  rfl
theorem dot_lhs1 (i : S2048x256.Idx) (q : dot_S2048x256_S256x256_S2048x256_1_0_0_1_n_n.contr.Idx) :
    (dot_S2048x256_S256x256_S2048x256_1_0_0_1_n_n.lhsIdx i q 1).val = (q ⟨0, by decide⟩).val :=
  dot_S2048x256_S256x256_S2048x256_1_0_0_1_n_n.lhsIdx_val_of_single rfl i q
theorem dot_rhs0 (i : S2048x256.Idx) (q : dot_S2048x256_S256x256_S2048x256_1_0_0_1_n_n.contr.Idx) :
    (dot_S2048x256_S256x256_S2048x256_1_0_0_1_n_n.rhsIdx i q 0).val = (q ⟨0, by decide⟩).val :=
  dot_S2048x256_S256x256_S2048x256_1_0_0_1_n_n.rhsIdx_val_of_single rfl i q
theorem dot_rhs1 (i : S2048x256.Idx) (q : dot_S2048x256_S256x256_S2048x256_1_0_0_1_n_n.contr.Idx) :
    (dot_S2048x256_S256x256_S2048x256_1_0_0_1_n_n.rhsIdx i q 1).val = (i 1).val := by
  unfold DotDims.rhsIdx
  rw [dif_neg (show ¬(1 : Fin S256x256.rank) ∈ dot_S2048x256_S256x256_S2048x256_1_0_0_1_n_n.rhsBatch by decide),
    dif_pos (show (1 : Fin S256x256.rank) ∈ dot_S2048x256_S256x256_S2048x256_1_0_0_1_n_n.rhsNonContracting by decide)]
  rfl

/-- A block of rows times a matrix GIVEN TRANSPOSED, accumulated into zero: entry (p, q) is the sum over the features
    `k` of row `p` at `k` times row `q` of the matrix at `k`. -/
theorem rows_times_transposed (a : FVec Ideal S2048x256 .f32) (b : FVec Ideal S256x256 .f32)
    (h : S256x256.Transposes [1, 0] S256x256) (p : Fin 2048) (q : Fin 256) :
    matmul dot_S2048x256_S256x256_S2048x256_1_0_0_1_n_n none a (transpose S256x256 [1, 0] b h) (constant (F := Ideal) S2048x256 .f32 0x00000000#32) (ix2 p q)
      = ∑ k : Fin 256, a (ix2 p k) * b (ix2 q k) := by
  simp only [matmul]
  rw [Ideal.matmul_constant_zero_apply, ← Equiv.sum_comp (contrEquiv1 dot_S2048x256_S256x256_S2048x256_1_0_0_1_n_n 256 rfl rfl).symm]
  refine Finset.sum_congr rfl fun k _ => ?_
  have hk := contrEquiv1_symm_val dot_S2048x256_S256x256_S2048x256_1_0_0_1_n_n 256 rfl rfl k
  have el : dot_S2048x256_S256x256_S2048x256_1_0_0_1_n_n.lhsIdx (ix2 p q) ((contrEquiv1 dot_S2048x256_S256x256_S2048x256_1_0_0_1_n_n 256 rfl rfl).symm k) = ix2 p k :=
    funext fun c => Fin.ext (by
      match c with
      | ⟨0, _⟩ => exact dot_lhs0 _ _
      | ⟨1, _⟩ => exact (dot_lhs1 _ _).trans hk)
  have er : dot_S2048x256_S256x256_S2048x256_1_0_0_1_n_n.rhsIdx (ix2 p q) ((contrEquiv1 dot_S2048x256_S256x256_S2048x256_1_0_0_1_n_n 256 rfl rfl).symm k) = ix2 k q :=
    funext fun c => Fin.ext (by
      match c with
      | ⟨0, _⟩ => exact (dot_rhs0 _ _).trans hk
      | ⟨1, _⟩ => exact dot_rhs1 _ _)
  rw [el, er]
  exact congrArg (a (ix2 p k) * ·) (transpose_ix2_apply b h k q)

/-- A [1, 256] row broadcast down the block: entry (p, q) is the row at (0, q). -/
theorem row_down_block (v : FVec Ideal S1x256 .f32) (h2 : S1x256.Broadcasts S2048x256) (p : Fin 2048) (q : Fin 256) :
    broadcastTo S2048x256 v h2 (ix2 p q) = v (ix2 (0 : Fin 1) q) :=
  broadcastTo_1b_ab_apply v h2 p q

/-! ## The two stored blocks -/

/-- The projected block at (p, k). -/
def projBlock (rows : FVec Ideal S2048x256 .f32) (wp : FVec Ideal S256x256 .f32) (bpRow : FVec Ideal S1x256 .f32)
    (p : Fin 2048) (k : Fin 256) : EReal :=
  (∑ j : Fin 256, rows (ix2 p j) * wp (ix2 k j)) + bpRow (ix2 (0 : Fin 1) k)

/-- The gated block at (p, n). -/
def gatedBlock (rows : FVec Ideal S2048x256 .f32) (wp : FVec Ideal S256x256 .f32) (bpRow : FVec Ideal S1x256 .f32)
    (wc : FVec Ideal S256x256 .f32) (gateRow : FVec Ideal S1x256 .f32) (p : Fin 2048) (n : Fin 256) : EReal :=
  (∑ k : Fin 256, projBlock rows wp bpRow p k * wc (ix2 n k)) * gateRow (ix2 (0 : Fin 1) n)

/-- The block stored to the gated-columns output: `gatedBlock`, entry by entry. -/
theorem gated_payload (v0 : Vec Ideal S2048x256 .f32) (v1 : Vec Ideal S256x256 .f32) (v4 : Vec Ideal S1x256 .f32)
    (v8 : Vec Ideal S256x256 .f32) (v12 : Vec Ideal S1x256 .f32) (p : Fin 2048) (n : Fin 256) :
    k0_pay1 v0 v1 v4 v8 v12 (ix2 p n) = gatedBlock v0 v1 v4 v8 v12 p n := by
  unfold k0_pay1
  dsimp only
  simp only [shapeCast_self]
  rw [mulf_apply, row_down_block, rows_times_transposed]
  refine congrArg (· * v12 (ix2 (0 : Fin 1) n)) (Finset.sum_congr rfl fun k _ => ?_)
  rw [addf_apply, row_down_block, rows_times_transposed]
  rfl

/-- The block stored to the integrated output: the gated block against `Wo` given transposed, plus the bias row. -/
theorem integrated_payload (v0 : Vec Ideal S2048x256 .f32) (v1 : Vec Ideal S256x256 .f32) (v4 : Vec Ideal S1x256 .f32)
    (v8 : Vec Ideal S256x256 .f32) (v12 : Vec Ideal S1x256 .f32) (v17 : Vec Ideal S256x256 .f32)
    (v20 : Vec Ideal S1x256 .f32) (p : Fin 2048) (n : Fin 256) :
    k0_pay2 v0 v1 v4 v8 v12 v17 v20 (ix2 p n)
      = (∑ k : Fin 256, gatedBlock v0 v1 v4 v8 v12 p k * v17 (ix2 n k)) + v20 (ix2 (0 : Fin 1) n) := by
  unfold k0_pay2
  dsimp only
  simp only [shapeCast_self]
  rw [addf_apply, row_down_block, rows_times_transposed]
  refine congrArg (· + v20 (ix2 (0 : Fin 1) n)) (Finset.sum_congr rfl fun k _ => ?_)
  rw [gated_payload]

end Cert.Plasticity.Body

end
-- ==== Proof.BlockIsSpec.lean ====
/-
  A block's entries are the specification's at the block's rows. If the 2048 rows a point holds are rows
  `row 0 … row 2047` of the batch, and the resident operands are the arguments read through their layouts — the
  flattened column weights at (n, k) the weights of block n / 32, offset n % 32; the gate row at (0, n) the gate of
  block n / 32; a bias row at (0, k) the bias at k — then the gated block at (p, n) is `gated (row p) n` and the
  integrated block at (p, n) is `integrated (row p) n`: the same sums, term for term.
-/
import proofs.«131770_j51857435132585_1_alg».proof.Proof.Payload
import proofs.«131770_j51857435132585_1_alg».proof.Proof.Spec

noncomputable section
open scoped BigOperators

namespace Cert.Plasticity.Body

open Cert.KernelIdeal Idealize.ShloMosaic Idealize.ShloMosaic.ValueIdx Cert.Plasticity

variable (rows : FVec Ideal S2048x256 .f32) (wp : FVec Ideal S256x256 .f32) (bpRow : FVec Ideal S1x256 .f32)
  (wc : FVec Ideal S256x256 .f32) (gateRow : FVec Ideal S1x256 .f32) (wo : FVec Ideal S256x256 .f32)
  (boRow : FVec Ideal S1x256 .f32)
  (x : FVec Ideal Rows .f32) (Wp : FVec Ideal Sq .f32) (bp : FVec Ideal Bias .f32) (Wc : FVec Ideal Cols .f32)
  (g : FVec Ideal Gates .f32) (Wo : FVec Ideal Sq .f32) (bo : FVec Ideal Bias .f32)
  (row : Fin 2048 → Fin 131072)

theorem gatedBlock_eq_gated
    (hrows : ∀ (p : Fin 2048) (j : Fin 256), rows (ix2 p j) = x (ix2 (row p) j))
    (hwp : ∀ k j : Fin 256, wp (ix2 k j) = Wp (ix2 k j))
    (hbp : ∀ k : Fin 256, bpRow (ix2 (0 : Fin 1) k) = bp (ix1 k))
    (hwc : ∀ n k : Fin 256, wc (ix2 n k) = Wc (ix3 (colBlock n) (colOff n) k))
    (hg : ∀ n : Fin 256, gateRow (ix2 (0 : Fin 1) n) = g (ix1 (colBlock n)))
    (p : Fin 2048) (n : Fin 256) :
    gatedBlock rows wp bpRow wc gateRow p n = gated x Wp bp Wc g (row p) n := by
  unfold gatedBlock projBlock gated proj
  simp only [hrows, hwp, hbp, hwc, hg]

theorem integratedBlock_eq_integrated
    (hrows : ∀ (p : Fin 2048) (j : Fin 256), rows (ix2 p j) = x (ix2 (row p) j))
    (hwp : ∀ k j : Fin 256, wp (ix2 k j) = Wp (ix2 k j))
    (hbp : ∀ k : Fin 256, bpRow (ix2 (0 : Fin 1) k) = bp (ix1 k))
    (hwc : ∀ n k : Fin 256, wc (ix2 n k) = Wc (ix3 (colBlock n) (colOff n) k))
    (hg : ∀ n : Fin 256, gateRow (ix2 (0 : Fin 1) n) = g (ix1 (colBlock n)))
    (hwo : ∀ n k : Fin 256, wo (ix2 n k) = Wo (ix2 n k))
    (hbo : ∀ n : Fin 256, boRow (ix2 (0 : Fin 1) n) = bo (ix1 n))
    (p : Fin 2048) (n : Fin 256) :
    (∑ k : Fin 256, gatedBlock rows wp bpRow wc gateRow p k * wo (ix2 n k)) + boRow (ix2 (0 : Fin 1) n)
      = integrated x Wp bp Wc g Wo bo (row p) n := by
  unfold integrated
  simp only [gatedBlock_eq_gated rows wp bpRow wc gateRow x Wp bp Wc g row hrows hwp hbp hwc hg, hwo, hbo]

end Cert.Plasticity.Body

end
-- ==== Proof.HostSide.lean ====
/-
  What the kernel's host operations leave for the region, as functions of the launch memory. Before the region the
  program computes the gate vector from `pre` and `post` (normalise the first 32 features of each row, take the
  row-wise inner products, a logistic, a threshold), spreads it over the 256 flat columns as a [1, 256] row, lays the
  [8, 32, 256] column weights out as [256, 256] and the two biases as [1, 256] rows; it also computes the thresholded
  alignments and the all-ones mask, which are results in their own right and which the region never touches.

  The gate is the SAME chain of operations, literal for literal, that the reference applies to the same two arguments,
  so it is carried here as the reference's own gate stage applied to the kernel's arguments and never opened. What is
  read at an index is only the layout around it:
    • the flattened weights at (n, k) are the weights at (n / 32, n % 32, k);
    • the gate row at (0, n) is the gate of block n / 32;
    • a bias row at (0, k) is the bias at k.
-/
import proofs.«131770_j51857435132585_1_alg».proof.Proof.Gen.KernelIdeal.Frame
import proofs.«131770_j51857435132585_1_alg».proof.Proof.Gen.ReferenceIdeal.Read
import proofs.«131770_j51857435132585_1_alg».proof.Proof.Spec
import Idealize.ShloMosaic.Lib.StableHlo.Run
import Idealize.ShloMosaic.Lib.ValueLayout
import Idealize.ShloMosaic.PureOps.Ideal

noncomputable section

namespace Cert.Plasticity.Host

open Cert.KernelIdeal Cert.KernelIdeal.Gen Idealize.ShloMosaic Idealize.ShloMosaic.TcCoe Idealize.SL.Sem
open Idealize.ShloMosaic.StableHlo Idealize.ShloMosaic.ValueIdx Cert.Plasticity

variable (m : (ℓ : Loc nD τ sig) → Buf (Elt Ideal) ℓ)

/-- The gate vector of the launch memory: the reference's gate stage of `pre` and `post`. -/
def gateOf (c : Dev nD) : FVec Ideal Gates .f32 :=
  Cert.ReferenceIdeal.Read.val_main_v28 (F := Ideal) (m ((c : Thread nD τ).loc main_arg3)) (m ((c : Thread nD τ).loc main_arg4))

/-! ## The region-entry contents -/

/-- The projection's bias as the region finds it: the [256] argument laid out as a [1, 256] row. -/
theorem bp_row (c : Dev nD) : (V m c main_v33 : S1x256.Idx → EReal)
    = shapeCast S1x256 (m ((c : Thread nD τ).loc main_arg2)) shapeCasts_S256_S1x256 := by
  dsimp only [Gen.V]
  simp only [hostOps0, hostOps0_1, hostOps0_2, hostOps0_3, hostOps0_4, hostOps0_5, hostOps0_6, List.flatten_cons, List.flatten_nil, List.append_nil, List.cons_append, List.nil_append]
  after_results
  rfl

/-- The integration's bias as the region finds it. -/
theorem bo_row (c : Dev nD) : (V m c main_v34 : S1x256.Idx → EReal)
    = shapeCast S1x256 (m ((c : Thread nD τ).loc main_arg7)) shapeCasts_S256_S1x256 := by
  dsimp only [Gen.V]
  simp only [hostOps0, hostOps0_1, hostOps0_2, hostOps0_3, hostOps0_4, hostOps0_5, hostOps0_6, List.flatten_cons, List.flatten_nil, List.append_nil, List.cons_append, List.nil_append]
  after_results
  rfl

/-- The column weights as the region finds them: the [8, 32, 256] argument laid out as [256, 256]. -/
theorem wc_flat (c : Dev nD) : (V m c main_v32 : S256x256.Idx → EReal)
    = shapeCast S256x256 (m ((c : Thread nD τ).loc main_arg5)) shapeCasts_S8x32x256_S256x256 := by
  dsimp only [Gen.V]
  simp only [hostOps0, hostOps0_1, hostOps0_2, hostOps0_3, hostOps0_4, hostOps0_5, hostOps0_6, List.flatten_cons, List.flatten_nil, List.append_nil, List.cons_append, List.nil_append]
  after_results
  rfl

/-- The gate row as the region finds it: the gate vector repeated 32 times per block, laid out flat, as a [1, 256] row. -/
theorem gate_row (c : Dev nD) : (V m c main_v26 : S1x256.Idx → EReal)
    = shapeCast S1x256 (shapeCast S256 (broadcastInDim S8x32 ![0] bcast_S8_S8x32_0 (gateOf m c)) shapeCasts_S8x32_S256)
        shapeCasts_S256_S1x256 := by
  dsimp only [Gen.V]
  simp only [hostOps0, hostOps0_1, hostOps0_2, hostOps0_3, hostOps0_4, hostOps0_5, hostOps0_6, List.flatten_cons, List.flatten_nil, List.append_nil, List.cons_append, List.nil_append]
  after_results_simp <;> rfl

/-- The thresholded alignments (the third result) are the reference's stage of the same two arguments. -/
theorem alignments_val (c : Dev nD) : (V m c main_v30 : S8.Idx → EReal)
    = Cert.ReferenceIdeal.Read.val_main_v42 (F := Ideal) (m ((c : Thread nD τ).loc main_arg3)) (m ((c : Thread nD τ).loc main_arg4)) := by
  dsimp only [Gen.V]
  simp only [hostOps0, hostOps0_1, hostOps0_2, hostOps0_3, hostOps0_4, hostOps0_5, hostOps0_6, List.flatten_cons, List.flatten_nil, List.append_nil, List.cons_append, List.nil_append]
  after_results_simp <;> rfl

/-- The all-ones mask (the fourth result) is the reference's. -/
theorem mask_val (c : Dev nD) : (V m c main_v31 : S8.Idx → EReal) = Cert.ReferenceIdeal.Read.val_main_v43 (F := Ideal) := by
  dsimp only [Gen.V]
  simp only [hostOps0, hostOps0_1, hostOps0_2, hostOps0_3, hostOps0_4, hostOps0_5, hostOps0_6, List.flatten_cons, List.flatten_nil, List.append_nil, List.cons_append, List.nil_append]
  after_results
  rfl

/-! ## Read at an index -/

theorem bp_row_apply (c : Dev nD) (k : Fin 256) :
    (V m c main_v33 : S1x256.Idx → EReal) (ix2 (0 : Fin 1) k)
      = (m ((c : Thread nD τ).loc main_arg2) : S256.Idx → EReal) (ix1 k) := by
  rw [bp_row]
  exact shapeCast_a_1a_apply _ shapeCasts_S256_S1x256 0 k

theorem bo_row_apply (c : Dev nD) (k : Fin 256) :
    (V m c main_v34 : S1x256.Idx → EReal) (ix2 (0 : Fin 1) k)
      = (m ((c : Thread nD τ).loc main_arg7) : S256.Idx → EReal) (ix1 k) := by
  rw [bo_row]
  exact shapeCast_a_1a_apply _ shapeCasts_S256_S1x256 0 k

/-- Flat column `n` of the laid-out weights is block `n / 32`, offset `n % 32`. -/
theorem wc_flat_apply (c : Dev nD) (n k : Fin 256) :
    (V m c main_v32 : S256x256.Idx → EReal) (ix2 n k)
      = (m ((c : Thread nD τ).loc main_arg5) : S8x32x256.Idx → EReal) (ix3 (colBlock n) (colOff n) k) := by
  rw [wc_flat]
  exact shapeCast_apply _ shapeCasts_S8x32x256_S256x256 (ix2 n k) (ix3 (colBlock n) (colOff n) k) (by
    rw [Shape.rowMajor_val_three, Shape.rowMajor_val_two]
    show (n.val / 32 * 32 + n.val % 32) * 256 + k.val = n.val * 256 + k.val
    omega)

/-- The gate row at flat column `n` is the gate of block `n / 32`. -/
theorem gate_row_apply (c : Dev nD) (n : Fin 256) :
    (V m c main_v26 : S1x256.Idx → EReal) (ix2 (0 : Fin 1) n) = gateOf m c (ix1 (colBlock n)) := by
  rw [gate_row]
  refine (shapeCast_a_1a_apply _ shapeCasts_S256_S1x256 0 n).trans ?_
  refine (shapeCast_apply _ shapeCasts_S8x32_S256 (ix1 n) (ix2 (colBlock n) (colOff n)) (by
    rw [Shape.rowMajor_val_two, Shape.rowMajor_val_one]
    show n.val / 32 * 32 + n.val % 32 = n.val
    omega)).trans ?_
  exact broadcastInDim_apply _ bcast_S8_S8x32_0 _ (ix2 (colBlock n) (colOff n)) (ix1 (colBlock n)) (fun a => match a with
    | ⟨0, _⟩ => by show n.val / 32 = if (8 : Nat) = 1 then 0 else n.val / 32; rw [if_neg (by decide)])

end Cert.Plasticity.Host

end
-- ==== Proof.Blocks.lean ====
/-
  From blocks to arrays. The grid has 64 points; point `t` holds rows 2048·t … 2048·t + 2047 of the batch and all of
  every other operand, and writes its two stored blocks back to rows 2048·t … 2048·t + 2047 of the two output arrays.
  So what point `t` writes back is block `t` of the specification's arrays (the body's entries are the specification's
  at the block's rows), the 64 blocks cover the arrays (row r lies in block r / 2048), and the arrays end holding the
  specification. The two host-only results are whatever the host operations left, which the region does not touch.
-/
import proofs.«131770_j51857435132585_1_alg».proof.Proof.Gen.KernelIdeal.Value
import proofs.«131770_j51857435132585_1_alg».proof.Proof.BlockIsSpec
import proofs.«131770_j51857435132585_1_alg».proof.Proof.HostSide

noncomputable section
open scoped BigOperators

namespace Cert.Plasticity.Kernel

open Cert.KernelIdeal Cert.KernelIdeal.Gen Cert.KernelIdeal.Value Idealize.ShloMosaic Idealize.ShloMosaic.TcCoe Idealize.SL.Sem
open Idealize.ShloMosaic.Pipeline (Dat)
open Idealize.ShloMosaic.ValueIdx Cert.Plasticity

variable (m : (ℓ : Loc nD τ sig) → Buf (Elt Ideal) ℓ) (ρ : Dev nD → PrngReg)

theorem hz : (![0, 0] : Fin 2 → Nat) = fun _ => 0 := funext fun a => by fin_cases a <;> rfl

/-- The gated column outputs of the launch memory. -/
def gatedOf (c : Dev nD) : FVec Ideal Rows .f32 := gatedArr (m ((c : Thread nD τ).loc main_arg0)) (m ((c : Thread nD τ).loc main_arg1)) (m ((c : Thread nD τ).loc main_arg2)) (m ((c : Thread nD τ).loc main_arg5)) (Host.gateOf m c)

/-- The integrated outputs of the launch memory. -/
def integratedOf (c : Dev nD) : FVec Ideal Rows .f32 :=
  integratedArr (m ((c : Thread nD τ).loc main_arg0)) (m ((c : Thread nD τ).loc main_arg1)) (m ((c : Thread nD τ).loc main_arg2)) (m ((c : Thread nD τ).loc main_arg5)) (Host.gateOf m c) (m ((c : Thread nD τ).loc main_arg6)) (m ((c : Thread nD τ).loc main_arg7))

/-- The printed index maps, decided over the 64 points: the rows and the two outputs move with the point along the
    batch axis, every other operand stays at block (0, 0). -/
theorem idx_facts : ∀ t : Fin cfg0.N,
    win0_0.index t (0 : Fin 2) = t.val ∧ win0_0.index t (1 : Fin 2) = 0
    ∧ win0_7.index t (0 : Fin 2) = t.val ∧ win0_7.index t (1 : Fin 2) = 0
    ∧ win0_8.index t (0 : Fin 2) = t.val ∧ win0_8.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- The row of the batch that row `p` of point `t`'s block is. -/
def rowAt (t : Fin cfg0.N) (p : Fin 2048) : Fin 131072 :=
  ⟨t.val * 2048 + p.val, by have := t.isLt; have hN : cfg0.N = 64 := N_0; have := p.isLt; omega⟩

theorem rowAt_val (t : Fin cfg0.N) (p : Fin 2048) : (rowAt t p).val = t.val * 2048 + p.val := rfl

/-! ## What each point holds -/

/-- Point `t`'s block of rows, read at (p, j), is the batch at (2048·t + p, j). -/
theorem rows_read (c : Dev nD) (t : Fin cfg0.N) (p : Fin 2048) (j : Fin 256) :
    (iblk m c 0 t : S2048x256.Idx → EReal) (ix2 p j)
      = ((m ((c : Thread nD τ).loc main_arg0)) : S131072x256.Idx → EReal) (ix2 (rowAt t p) j) := by
  obtain ⟨e00, e01, e70, e71, e80, e81, e10, e11, e20, e21, e30, e31, e40, e41, e50, e51, e60, e61⟩ := idx_facts t
  unfold iblk
  rw [View.read_apply]
  show V m c main_arg0 _ = _
  rw [V_main_arg0]
  refine congrArg _ (funext fun a => Fin.ext ?_)
  match a with
  | ⟨0, _⟩ => show win0_0.index t (0 : Fin 2) * 2048 + 1 * p.val = t.val * 2048 + p.val; rw [e00]; omega
  | ⟨1, _⟩ => show win0_0.index t (1 : Fin 2) * 256 + 1 * j.val = j.val; rw [e01]; omega

/-- The projection weights are resident: every point holds the whole matrix. -/
theorem wp_resident (c : Dev nD) (t : Fin cfg0.N) : (iblk m c 1 t : S256x256.Idx → EReal) = V m c main_arg1 := by
  obtain ⟨e00, e01, e70, e71, e80, e81, e10, e11, e20, e21, e30, e31, e40, e41, e50, e51, e60, e61⟩ := idx_facts t
  funext y
  unfold iblk
  rw [View.read_apply]
  show V m c main_arg1 _ = V m c main_arg1 y
  refine congrArg _ (funext fun a => Fin.ext ?_)
  match a with
  | ⟨0, _⟩ => show win0_1.index t (0 : Fin 2) * 256 + 1 * (y 0).val = (y 0).val; rw [e10]; omega
  | ⟨1, _⟩ => show win0_1.index t (1 : Fin 2) * 256 + 1 * (y 1).val = (y 1).val; rw [e11]; omega

/-- The projection's bias row is resident. -/
theorem bp_resident (c : Dev nD) (t : Fin cfg0.N) : (iblk m c 2 t : S1x256.Idx → EReal) = V m c main_v33 := by
  obtain ⟨e00, e01, e70, e71, e80, e81, e10, e11, e20, e21, e30, e31, e40, e41, e50, e51, e60, e61⟩ := idx_facts t
  funext y
  unfold iblk
  rw [View.read_apply]
  show V m c main_v33 _ = V m c main_v33 y
  refine congrArg _ (funext fun a => Fin.ext ?_)
  match a with
  | ⟨0, _⟩ => show win0_2.index t (0 : Fin 2) * 1 + 1 * (y 0).val = (y 0).val; rw [e20]; omega
  | ⟨1, _⟩ => show win0_2.index t (1 : Fin 2) * 256 + 1 * (y 1).val = (y 1).val; rw [e21]; omega

/-- The flattened column weights are resident. -/
theorem wc_resident (c : Dev nD) (t : Fin cfg0.N) : (iblk m c 3 t : S256x256.Idx → EReal) = V m c main_v32 := by
  obtain ⟨e00, e01, e70, e71, e80, e81, e10, e11, e20, e21, e30, e31, e40, e41, e50, e51, e60, e61⟩ := idx_facts t
  funext y
  unfold iblk
  rw [View.read_apply]
  show V m c main_v32 _ = V m c main_v32 y
  refine congrArg _ (funext fun a => Fin.ext ?_)
  match a with
  | ⟨0, _⟩ => show win0_3.index t (0 : Fin 2) * 256 + 1 * (y 0).val = (y 0).val; rw [e30]; omega
  | ⟨1, _⟩ => show win0_3.index t (1 : Fin 2) * 256 + 1 * (y 1).val = (y 1).val; rw [e31]; omega

/-- The gate row is resident. -/
theorem gate_resident (c : Dev nD) (t : Fin cfg0.N) : (iblk m c 4 t : S1x256.Idx → EReal) = V m c main_v26 := by
  obtain ⟨e00, e01, e70, e71, e80, e81, e10, e11, e20, e21, e30, e31, e40, e41, e50, e51, e60, e61⟩ := idx_facts t
  funext y
  unfold iblk
  rw [View.read_apply]
  show V m c main_v26 _ = V m c main_v26 y
  refine congrArg _ (funext fun a => Fin.ext ?_)
  match a with
  | ⟨0, _⟩ => show win0_4.index t (0 : Fin 2) * 1 + 1 * (y 0).val = (y 0).val; rw [e40]; omega
  | ⟨1, _⟩ => show win0_4.index t (1 : Fin 2) * 256 + 1 * (y 1).val = (y 1).val; rw [e41]; omega

/-- The integration weights are resident. -/
theorem wo_resident (c : Dev nD) (t : Fin cfg0.N) : (iblk m c 5 t : S256x256.Idx → EReal) = V m c main_arg6 := by
  obtain ⟨e00, e01, e70, e71, e80, e81, e10, e11, e20, e21, e30, e31, e40, e41, e50, e51, e60, e61⟩ := idx_facts t
  funext y
  unfold iblk
  rw [View.read_apply]
  show V m c main_arg6 _ = V m c main_arg6 y
  refine congrArg _ (funext fun a => Fin.ext ?_)
  match a with
  | ⟨0, _⟩ => show win0_5.index t (0 : Fin 2) * 256 + 1 * (y 0).val = (y 0).val; rw [e50]; omega
  | ⟨1, _⟩ => show win0_5.index t (1 : Fin 2) * 256 + 1 * (y 1).val = (y 1).val; rw [e51]; omega

/-- The integration's bias row is resident. -/
theorem bo_resident (c : Dev nD) (t : Fin cfg0.N) : (iblk m c 6 t : S1x256.Idx → EReal) = V m c main_v34 := by
  obtain ⟨e00, e01, e70, e71, e80, e81, e10, e11, e20, e21, e30, e31, e40, e41, e50, e51, e60, e61⟩ := idx_facts t
  funext y
  unfold iblk
  rw [View.read_apply]
  show V m c main_v34 _ = V m c main_v34 y
  refine congrArg _ (funext fun a => Fin.ext ?_)
  match a with
  | ⟨0, _⟩ => show win0_6.index t (0 : Fin 2) * 1 + 1 * (y 0).val = (y 0).val; rw [e60]; omega
  | ⟨1, _⟩ => show win0_6.index t (1 : Fin 2) * 256 + 1 * (y 1).val = (y 1).val; rw [e61]; omega

/-! ## What each point writes back -/

/-- Point `t` writes block `t` of the gated column outputs. -/
theorem flushed8_eq (c : Dev nD) (t : Fin cfg0.N) :
    (dats m 0 c).flushed 8 t = ((cfg0.win 8).blk t).view.read (Elt Ideal) (gatedOf m c) := by
  rw [flushed8]
  unfold out0_8
  rw [View.canon_unit_zero hz]
  simp only [View.ld_unit_zero (S := S2048x256) hz, View.ld_unit_zero (S := S256x256) hz, View.ld_unit_zero (S := S1x256) hz]
  obtain ⟨e00, e01, e70, e71, e80, e81, e10, e11, e20, e21, e30, e31, e40, e41, e50, e51, e60, e61⟩ := idx_facts t
  funext j
  obtain ⟨p, n, rfl⟩ : ∃ (p : Fin 2048) (n : Fin 256), j = ix2 p n := ⟨j 0, j 1, eq_ix2 j⟩
  show k0_pay1 (iblk m c 0 t) (iblk m c 1 t) (iblk m c 2 t) (iblk m c 3 t) (iblk m c 4 t) (ix2 p n) = gatedOf m c (((cfg0.win 8).blk t).view.emb (ix2 p n))
  have hemb : ((cfg0.win 8).blk t).view.emb (ix2 p n) = ix2 (rowAt t p) n := funext fun a => Fin.ext (by
    match a with
    | ⟨0, _⟩ => show win0_8.index t (0 : Fin 2) * 2048 + 1 * p.val = t.val * 2048 + p.val; rw [e80]; omega
    | ⟨1, _⟩ => show win0_8.index t (1 : Fin 2) * 256 + 1 * n.val = n.val; rw [e81]; omega)
  rw [hemb]
  refine (Body.gated_payload (iblk m c 0 t) (iblk m c 1 t) (iblk m c 2 t) (iblk m c 3 t) (iblk m c 4 t) p n).trans ?_
  show _ = gated (m ((c : Thread nD τ).loc main_arg0)) (m ((c : Thread nD τ).loc main_arg1)) (m ((c : Thread nD τ).loc main_arg2)) (m ((c : Thread nD τ).loc main_arg5)) (Host.gateOf m c) (rowAt t p) n
  exact Body.gatedBlock_eq_gated (iblk m c 0 t) (iblk m c 1 t) (iblk m c 2 t) (iblk m c 3 t) (iblk m c 4 t)
    (m ((c : Thread nD τ).loc main_arg0)) (m ((c : Thread nD τ).loc main_arg1)) (m ((c : Thread nD τ).loc main_arg2)) (m ((c : Thread nD τ).loc main_arg5)) (Host.gateOf m c) (rowAt t)
    (rows_read m c t)
    (fun k j => by rw [wp_resident, V_main_arg1])
    (fun k => by rw [bp_resident]; exact Host.bp_row_apply m c k)
    (fun n k => by rw [wc_resident]; exact Host.wc_flat_apply m c n k)
    (fun n => by rw [gate_resident]; exact Host.gate_row_apply m c n) p n

/-- Point `t` writes block `t` of the integrated outputs. -/
theorem flushed7_eq (c : Dev nD) (t : Fin cfg0.N) :
    (dats m 0 c).flushed 7 t = ((cfg0.win 7).blk t).view.read (Elt Ideal) (integratedOf m c) := by
  rw [flushed7]
  unfold out0_7
  rw [View.canon_unit_zero hz]
  simp only [View.ld_unit_zero (S := S2048x256) hz, View.ld_unit_zero (S := S256x256) hz, View.ld_unit_zero (S := S1x256) hz]
  obtain ⟨e00, e01, e70, e71, e80, e81, e10, e11, e20, e21, e30, e31, e40, e41, e50, e51, e60, e61⟩ := idx_facts t
  funext j
  obtain ⟨p, n, rfl⟩ : ∃ (p : Fin 2048) (n : Fin 256), j = ix2 p n := ⟨j 0, j 1, eq_ix2 j⟩
  show k0_pay2 (iblk m c 0 t) (iblk m c 1 t) (iblk m c 2 t) (iblk m c 3 t) (iblk m c 4 t) (iblk m c 5 t) (iblk m c 6 t) (ix2 p n) = integratedOf m c (((cfg0.win 7).blk t).view.emb (ix2 p n))
  have hemb : ((cfg0.win 7).blk t).view.emb (ix2 p n) = ix2 (rowAt t p) n := funext fun a => Fin.ext (by
    match a with
    | ⟨0, _⟩ => show win0_7.index t (0 : Fin 2) * 2048 + 1 * p.val = t.val * 2048 + p.val; rw [e70]; omega
    | ⟨1, _⟩ => show win0_7.index t (1 : Fin 2) * 256 + 1 * n.val = n.val; rw [e71]; omega)
  rw [hemb]
  refine (Body.integrated_payload (iblk m c 0 t) (iblk m c 1 t) (iblk m c 2 t) (iblk m c 3 t) (iblk m c 4 t) (iblk m c 5 t) (iblk m c 6 t) p n).trans ?_
  show _ = integrated (m ((c : Thread nD τ).loc main_arg0)) (m ((c : Thread nD τ).loc main_arg1)) (m ((c : Thread nD τ).loc main_arg2)) (m ((c : Thread nD τ).loc main_arg5)) (Host.gateOf m c) (m ((c : Thread nD τ).loc main_arg6)) (m ((c : Thread nD τ).loc main_arg7)) (rowAt t p) n
  exact Body.integratedBlock_eq_integrated (iblk m c 0 t) (iblk m c 1 t) (iblk m c 2 t) (iblk m c 3 t) (iblk m c 4 t) (iblk m c 5 t) (iblk m c 6 t)
    (m ((c : Thread nD τ).loc main_arg0)) (m ((c : Thread nD τ).loc main_arg1)) (m ((c : Thread nD τ).loc main_arg2)) (m ((c : Thread nD τ).loc main_arg5)) (Host.gateOf m c) (m ((c : Thread nD τ).loc main_arg6)) (m ((c : Thread nD τ).loc main_arg7)) (rowAt t)
    (rows_read m c t)
    (fun k j => by rw [wp_resident, V_main_arg1])
    (fun k => by rw [bp_resident]; exact Host.bp_row_apply m c k)
    (fun n k => by rw [wc_resident]; exact Host.wc_flat_apply m c n k)
    (fun n => by rw [gate_resident]; exact Host.gate_row_apply m c n)
    (fun n k => by rw [wo_resident, V_main_arg6])
    (fun n => by rw [bo_resident]; exact Host.bo_row_apply m c n) p n

/-! ## The blocks cover the arrays -/

/-- An index of the array is in point `t`'s block of output 8 iff each coordinate is in the block's range on its axis. -/
theorem mem_blk8 (t : Fin cfg0.N) (i : S131072x256.Idx) :
    i ∈ ((cfg0.win 8).blk t).view.set ↔ ∀ a : Fin 2, win0_8.index t a * S2048x256.size a ≤ (i a).val ∧ (i a).val < win0_8.index t a * S2048x256.size a + S2048x256.size a := by
  show i ∈ ((View.whole main_v35_1).slice (win0_8.rect t)).set ↔ _
  rw [View.set_slice_whole, Rect.mem_set_unit]
  exact Iff.rfl

/-- Every row of the batch is in some point's block: row `r` is in the block of point `r / 2048`. -/
theorem cover8 (i : S131072x256.Idx) :
    ∃ t : Fin cfg0.N, (cfg0.win 8).flush t = true ∧ i ∈ ((cfg0.win 8).blk t).view.set := by
  have hi0 : (i 0).val < 131072 := (i 0).isLt
  have hi1 : (i 1).val < 256 := (i 1).isLt
  have hN : cfg0.N = 64 := N_0
  obtain ⟨t, ht⟩ : ∃ t : Fin cfg0.N, t.val = (i 0).val / 2048 := ⟨⟨(i 0).val / 2048, by omega⟩, rfl⟩
  obtain ⟨e00, e01, e70, e71, e80, e81, e10, e11, e20, e21, e30, e31, e40, e41, e50, e51, e60, e61⟩ := idx_facts t
  refine ⟨t, flush0_8 t, ?_⟩
  rw [mem_blk8]
  intro a
  match a with
  | ⟨0, _⟩ =>
    show win0_8.index t (0 : Fin 2) * 2048 ≤ (i 0).val ∧ (i 0).val < win0_8.index t (0 : Fin 2) * 2048 + 2048
    rw [e80, ht]; omega
  | ⟨1, _⟩ =>
    show win0_8.index t (1 : Fin 2) * 256 ≤ (i 1).val ∧ (i 1).val < win0_8.index t (1 : Fin 2) * 256 + 256
    rw [e81]; omega

/-- An index of the array is in point `t`'s block of output 7 iff each coordinate is in the block's range on its axis. -/
theorem mem_blk7 (t : Fin cfg0.N) (i : S131072x256.Idx) :
    i ∈ ((cfg0.win 7).blk t).view.set ↔ ∀ a : Fin 2, win0_7.index t a * S2048x256.size a ≤ (i a).val ∧ (i a).val < win0_7.index t a * S2048x256.size a + S2048x256.size a := by
  show i ∈ ((View.whole main_v35_0).slice (win0_7.rect t)).set ↔ _
  rw [View.set_slice_whole, Rect.mem_set_unit]
  exact Iff.rfl

/-- Every row of the batch is in some point's block: row `r` is in the block of point `r / 2048`. -/
theorem cover7 (i : S131072x256.Idx) :
    ∃ t : Fin cfg0.N, (cfg0.win 7).flush t = true ∧ i ∈ ((cfg0.win 7).blk t).view.set := by
  have hi0 : (i 0).val < 131072 := (i 0).isLt
  have hi1 : (i 1).val < 256 := (i 1).isLt
  have hN : cfg0.N = 64 := N_0
  obtain ⟨t, ht⟩ : ∃ t : Fin cfg0.N, t.val = (i 0).val / 2048 := ⟨⟨(i 0).val / 2048, by omega⟩, rfl⟩
  obtain ⟨e00, e01, e70, e71, e80, e81, e10, e11, e20, e21, e30, e31, e40, e41, e50, e51, e60, e61⟩ := idx_facts t
  refine ⟨t, flush0_7 t, ?_⟩
  rw [mem_blk7]
  intro a
  match a with
  | ⟨0, _⟩ =>
    show win0_7.index t (0 : Fin 2) * 2048 ≤ (i 0).val ∧ (i 0).val < win0_7.index t (0 : Fin 2) * 2048 + 2048
    rw [e70, ht]; omega
  | ⟨1, _⟩ =>
    show win0_7.index t (1 : Fin 2) * 256 ≤ (i 1).val ∧ (i 1).val < win0_7.index t (1 : Fin 2) * 256 + 256
    rw [e71]; omega

/-! ## The arrays after the run -/

/-- The second result array ends holding the gated column outputs. -/
theorem final8 (c : Dev nD) : (dats m 0 c).arrAt 8 cfg0.N = gatedOf m c :=
  (dats m 0 c).arrAt_eq_of_cover 8 (gatedOf m c) (fun t _ => flushed8_eq m c t) cover8

/-- The first result array ends holding the integrated outputs. -/
theorem final7 (c : Dev nD) : (dats m 0 c).arrAt 7 cfg0.N = integratedOf m c :=
  (dats m 0 c).arrAt_eq_of_cover 7 (integratedOf m c) (fun t _ => flushed7_eq m c t) cover7

/-- The kernel's run, read: the two output arrays at the specification of the launch memory, the alignments and the
    mask at what the host operations computed, the arguments unchanged. -/
theorem run : θ_run defs (onTc (τ := τ) (main (F := Ideal))) ⟨m, fun _ => 0, ρ⟩ fun r => ∀ c : Dev nD,
      r.2.mem ((c : Thread nD τ).loc main_v35_0) = integratedOf m c
      ∧ r.2.mem ((c : Thread nD τ).loc main_v35_1) = gatedOf m c
      ∧ r.2.mem ((c : Thread nD τ).loc main_v30) = Cert.ReferenceIdeal.Read.val_main_v42 (F := Ideal) (m ((c : Thread nD τ).loc main_arg3)) (m ((c : Thread nD τ).loc main_arg4))
      ∧ r.2.mem ((c : Thread nD τ).loc main_v31) = Cert.ReferenceIdeal.Read.val_main_v43 (F := Ideal)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(post7 m r h c).trans (final7 m c),
      (post8 m r h c).trans (final8 m c),
      ((h c).2 main_v30 (Pipeline.mem_restRefs_of main_v30 (by decide) (by decide))).trans (Host.alignments_val m c),
      ((h c).2 main_v31 (Pipeline.mem_restRefs_of main_v31 (by decide) (by decide))).trans (Host.mask_val m c),
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c⟩)
    (run_main m ρ)

end Cert.Plasticity.Kernel

end
-- ==== Proof.lean ====
/-
  The kernel against its reference, over the extended reals.

  Both programs compute, from x : [131072, 256], Wp, bp, pre, post, Wc : [8, 32, 256], Wo, bo,

    proj       = x · Wpᵀ + bp
    gate       = threshold(logistic(⟨normalised pre[:, :32], normalised post⟩))            (one number per column block)
    combined   = (proj against the column weights, contracted over the features) ∗ gate    ([131072, 256], block-major)
    out        = combined · Woᵀ + bo
    alignments = gate-side logistic times its own threshold mask,   mask = ones

  and return (out, combined, alignments, mask). The reference does it with whole-array operations: one contraction of
  proj with the [8, 32, 256] weights, the gate broadcast along the column blocks, the [131072, 8, 32] result laid out as
  [131072, 256]. The kernel lays the weights out as [256, 256] and the gate as a [1, 256] row on the host, then streams
  the batch through a grid of 64 points, 2048 rows each, forming the three products block by block with every other
  operand resident.

  Read as exact real arithmetic the two are the same sums in the same order — the difference is only where each element
  sits (a flat column n is block n / 32 at offset n % 32) and how the batch is tiled — so the proof is bookkeeping:
    • Spec: the function, written once, index by index;
    • RefSide: the reference's stages are that function;
    • Payload, BlockIsSpec: the body's stored blocks are that function on the block's rows;
    • HostSide: what the host operations hand the region, and the two host-only results;
    • Blocks: the 64 blocks tile the arrays, so the arrays end holding that function.
  The gate, the alignments and the mask are the same chain of host operations on both sides and are never opened. No
  law of the extended reals that needs finiteness is used, so the precondition is not opened either. The ideal pass
  rewrote nothing in the kernel, so there is nothing to preserve. The three frames are the generated frame runs.
-/
import proofs.«131770_j51857435132585_1_alg».proof.Defs
import proofs.«131770_j51857435132585_1_alg».proof.Proof.Gen.Kernel
import proofs.«131770_j51857435132585_1_alg».proof.Proof.Gen.Kernel.Skeleton
import proofs.«131770_j51857435132585_1_alg».proof.Proof.Gen.Kernel.Launch
import proofs.«131770_j51857435132585_1_alg».proof.Proof.Gen.Kernel.Points
import proofs.«131770_j51857435132585_1_alg».proof.Proof.Gen.Kernel.Frame
import proofs.«131770_j51857435132585_1_alg».proof.Proof.Gen.KernelIdeal
import proofs.«131770_j51857435132585_1_alg».proof.Proof.Gen.KernelIdeal.Skeleton
import proofs.«131770_j51857435132585_1_alg».proof.Proof.Gen.KernelIdeal.Launch
import proofs.«131770_j51857435132585_1_alg».proof.Proof.Gen.KernelIdeal.Points
import proofs.«131770_j51857435132585_1_alg».proof.Proof.Gen.KernelIdeal.Frame
import proofs.«131770_j51857435132585_1_alg».proof.Proof.Gen.ReferenceIdeal
import proofs.«131770_j51857435132585_1_alg».proof.Proof.Gen.Pre_finite_inputs
import proofs.«131770_j51857435132585_1_alg».proof.Proof.Gen.KernelIdeal.Value
import proofs.«131770_j51857435132585_1_alg».proof.Proof.Gen.ReferenceIdeal.Run
import proofs.«131770_j51857435132585_1_alg».proof.Proof.Gen.ReferenceIdeal.Read
import proofs.«131770_j51857435132585_1_alg».proof.Proof.RefSide
import proofs.«131770_j51857435132585_1_alg».proof.Proof.Blocks
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- The reference is a straight line of host operations: its run, with the four results dropped. -/
theorem frame_reference : Cert.frame_ReferenceIdeal := fun m ρ _ =>
  (θ_run Cert.ReferenceIdeal.defs _ _).mono (fun _ h c => (h c).2.2.2.2)
    (Cert.ReferenceIdeal.Value.run (F := Ideal) m ρ)

/-- The ideal pass rewrote no operation of the kernel. -/
theorem preserves : Cert.preserves_Kernel_KernelIdeal := trivial

/-- From memories agreeing on the eight arguments both programs end with the same four results: the integrated
    outputs, the gated column outputs, the thresholded alignments and the mask of the (common) arguments. -/
theorem algebraic : Cert.algebraic_KernelIdeal_ReferenceIdeal := by
  intro m ρ m' ρ' _ hagree
  refine ⟨fun c => Cert.Plasticity.Kernel.integratedOf m c, fun c => Cert.Plasticity.Kernel.gatedOf m c,
    fun c => Cert.ReferenceIdeal.Read.val_main_v42 (F := Ideal) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    fun _ => Cert.ReferenceIdeal.Read.val_main_v43 (F := Ideal),
    Cert.Plasticity.Kernel.run m ρ, ?_⟩
  refine (θ_run Cert.ReferenceIdeal.defs _ _).mono (fun _ h c => ?_) (Cert.ReferenceIdeal.Value.run (F := Ideal) m' ρ')
  obtain ⟨h0, h1, h2, h3, hargs⟩ := h c
  obtain ⟨a0, a1, a2, a3, a4, a5, a6, a7⟩ := hagree c
  refine ⟨h0.trans ?_, h1.trans ?_, h2.trans ?_, h3.trans ?_, hargs⟩
  · refine (Cert.ReferenceIdeal.Read.val_main_v38_eq _ _ _ _ _ _ _ _).trans ?_
    rw [Cert.Plasticity.Ref.integratedArr_eq, a0, a1, a2, a3, a4, a5, a6, a7]
    rfl
  · refine (Cert.ReferenceIdeal.Read.val_main_v33_eq _ _ _ _ _ _).trans ?_
    rw [Cert.Plasticity.Ref.gatedArr_eq, a0, a1, a2, a3, a4, a5]
    rfl
  · refine (Cert.ReferenceIdeal.Read.val_main_v42_eq _ _).trans ?_
    rw [a3, a4]
  · exact Cert.ReferenceIdeal.Read.val_main_v43_eq

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
